-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S32 : Shape := ⟨1, ![32]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x256x64x64 .f32) (main_arg1 : FVec F S32x256 .f32) (main_arg2 : FVec F S32 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x256x64x64 : Shape := ⟨4, ![32, 256, 64, 64]⟩
abbrev S32x256 : Shape := ⟨2, ![32, 256]⟩
abbrev S32 : Shape := ⟨1, ![32]⟩
abbrev S32x256x4096 : Shape := ⟨3, ![32, 256, 4096]⟩
abbrev S32x1 : Shape := ⟨2, ![32, 1]⟩
abbrev S_ : Shape := ⟨0, ![]⟩
abbrev S32x1x256 : Shape := ⟨3, ![32, 1, 256]⟩
abbrev S2x256x4096 : Shape := ⟨3, ![2, 256, 4096]⟩
abbrev S2x1x256 : Shape := ⟨3, ![2, 1, 256]⟩
abbrev S1x256x4096 : Shape := ⟨3, ![1, 256, 4096]⟩
abbrev S256x4096 : Shape := ⟨2, ![256, 4096]⟩
abbrev S32x4096 : Shape := ⟨2, ![32, 4096]⟩
abbrev S4096 : Shape := ⟨1, ![4096]⟩
abbrev S1x4096 : Shape := ⟨2, ![1, 4096]⟩
abbrev S256 : Shape := ⟨1, ![256]⟩
abbrev S256x1 : Shape := ⟨2, ![256, 1]⟩
abbrev S1x256 : Shape := ⟨2, ![1, 256]⟩
abbrev S1x1x256 : Shape := ⟨3, ![1, 1, 256]⟩

abbrev nBuf : Space → Nat
  | .hbm => 12
  | .vmem => 8
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S32x256x4096, .f32⟩
  | .hbm, ⟨4, _⟩ => ⟨S32x1, .f32⟩
  | .hbm, ⟨5, _⟩ => ⟨S32x256, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S32x256, .bf16⟩
  | .hbm, ⟨10, _⟩ => ⟨S32x1x256, .f32⟩
  | .hbm, ⟨11, _⟩ => ⟨S32x256, .f32⟩
  | .local _ .vmem, ⟨0, _⟩ => ⟨S2x256x4096, .f32⟩
  | .local _ .vmem, ⟨1, _⟩ => ⟨S2x256x4096, .f32⟩
  | .local _ .vmem, ⟨2, _⟩ => ⟨S32x256, .f32⟩
  | .local _ .vmem, ⟨3, _⟩ => ⟨S32x256, .bf16⟩
  | .local _ .vmem, ⟨4, _⟩ => ⟨S32x1, .f32⟩
  | .local _ .vmem, ⟨5, _⟩ => ⟨S32x1, .f32⟩
  | .local _ .vmem, ⟨6, _⟩ => ⟨S2x1x256, .f32⟩
  | .local _ .vmem, ⟨7, _⟩ => ⟨S2x1x256, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x64x64_S32x256x4096 : S32x256x64x64.ShapeCasts S32x256x4096
  shapeCasts_S32_S32x1 : S32.ShapeCasts S32x1
  reducesTo_S32x256_S32_d1 : S32x256.ReducesTo [1] S32
  h_S_ : 0 < S_.numel
  bcast_S32_S32x1_0 : S32.BroadcastsInDim S32x1 (![0] : Fin 1 → Fin S32x1.rank)
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S2x256x4096_S1x256x4096_0_0_0 : ∀ a, (![0, 0, 0] : Fin 3 → Nat) a + S1x256x4096.size a ≤ S2x256x4096.size a
  h_S1x256x4096 : 0 < S1x256x4096.numel
  shapeCasts_S1x256x4096_S1x256x4096 : S1x256x4096.ShapeCasts S1x256x4096
  shapeCasts_S1x256x4096_S256x4096 : S1x256x4096.ShapeCasts S256x4096
  reduces_S256x4096_S4096 : S256x4096.Reduces [0] S4096
  shapeCasts_S4096_S1x4096 : S4096.ShapeCasts S1x4096
  broadcasts_S1x4096_S32x4096 : S1x4096.Broadcasts S32x4096
  broadcasts_S32x1_S32x4096 : S32x1.Broadcasts S32x4096
  reduces_S32x4096_S4096 : S32x4096.Reduces [0] S4096
  reduces_S32x4096_S32 : S32x4096.Reduces [1] S32
  reduces_S256x4096_S256 : S256x4096.Reduces [1] S256
  shapeCasts_S256_S256x1 : S256.ShapeCasts S256x1
  broadcasts_S32x1_S32x256 : S32x1.Broadcasts S32x256
  reduces_S32x256_S256 : S32x256.Reduces [0] S256
  shapeCasts_S256_S1x256 : S256.ShapeCasts S1x256
  transposes_S256x1_p1_0_S1x256 : S256x1.Transposes [1, 0] S1x256
  shapeCasts_S1x256_S1x1x256 : S1x256.ShapeCasts S1x1x256
  inb_S2x1x256_S1x1x256_0_0_0 : ∀ a, (![0, 0, 0] : Fin 3 → Nat) a + S1x1x256.size a ≤ S2x1x256.size a
  h_S1x1x256 : 0 < S1x1x256.numel
  inb_S2x256x4096_S1x256x4096_1_0_0 : ∀ a, (![1, 0, 0] : Fin 3 → Nat) a + S1x256x4096.size a ≤ S2x256x4096.size a
  inb_S2x1x256_S1x1x256_1_0_0 : ∀ a, (![1, 0, 0] : Fin 3 → Nat) a + S1x1x256.size a ≤ S2x1x256.size a
  shapeCasts_S32x1x256_S32x256 : S32x1x256.ShapeCasts S32x256
  dot_S32x256_S256x4096_S32x4096_1_0_0_1_n_n_wf : DotDims.WF S32x256 S256x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x4096.size a ≤ S32x256x4096.size a
  hwx0_0 : ∀ i : grid0.Coords, EltTy.bits .f32 = 32 ∨ (Rect.block (s := S32x256x4096) S2x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .bf16 = 32 ∨ (Rect.block (s := S32x256) S32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x256.size a ≤ S32x1x256.size a
  hwx0_5 : ∀ i : grid0.Coords, EltTy.bits .f32 = 32 ∨ (Rect.block (s := S32x1x256) S2x1x256.size (cc0_transform_5 i) (hinb0_5 i)).WholeWords (EltTy.packing .f32)

variable [Facts₀]

def dot_S32x256_S256x4096_S32x4096_1_0_0_1_n_n : DotDims S32x256 S256x4096 S32x4096 where
  lhsContracting := [1]
  rhsContracting := [0]
  lhsNonContracting := [0]
  rhsNonContracting := [1]
  lhsBatch := []
  rhsBatch := []
  wf := dot_S32x256_S256x4096_S32x4096_1_0_0_1_n_n_wf

abbrev win0_0 : Pipeline.Window sig grid0 :=
  Pipeline.Window.ofSpec (Memref.whole main_v0) S2x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2x1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S32 : Shape := ⟨1, ![32]⟩
abbrev S32x256x4096 : Shape := ⟨3, ![32, 256, 4096]⟩
abbrev S32x4096x256 : Shape := ⟨3, ![32, 4096, 256]⟩
abbrev S_ : Shape := ⟨0, ![]⟩
abbrev S32x4096 : Shape := ⟨2, ![32, 4096]⟩
abbrev S32x4096x1 : Shape := ⟨3, ![32, 4096, 1]⟩
abbrev S32x4096x32 : Shape := ⟨3, ![32, 4096, 32]⟩
abbrev S1x1x32 : Shape := ⟨3, ![1, 1, 32]⟩
abbrev S32x32x256 : Shape := ⟨3, ![32, 32, 256]⟩
abbrev S32x32 : Shape := ⟨2, ![32, 32]⟩
abbrev S32x32x1 : Shape := ⟨3, ![32, 32, 1]⟩
abbrev S1x32x256 : Shape := ⟨3, ![1, 32, 256]⟩

abbrev nBuf : Space → Nat
  | .hbm => 57
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S32x256x4096, .f32⟩
  | .hbm, ⟨4, _⟩ => ⟨S32x4096x256, .f32⟩
  | .hbm, ⟨5, _⟩ => ⟨S32x4096x256, .f32⟩
  | .hbm, ⟨6, _⟩ => ⟨S_, .f32⟩
  | .hbm, ⟨7, _⟩ => ⟨S32x4096, .f32⟩
  | .hbm, ⟨8, _⟩ => ⟨S32x4096x1, .f32⟩
  | .hbm, ⟨9, _⟩ => ⟨S32x256, .f32⟩
  | .hbm, ⟨10, _⟩ => ⟨S_, .f32⟩
  | .hbm, ⟨11, _⟩ => ⟨S32, .f32⟩
  | .hbm, ⟨12, _⟩ => ⟨S32x4096x32, .f32⟩
  | .hbm, ⟨13, _⟩ => ⟨S1x1x32, .f32⟩
  | .hbm, ⟨14, _⟩ => ⟨S32x4096x32, .f32⟩
  | .hbm, ⟨15, _⟩ => ⟨S32x4096x32, .f32⟩
  | .hbm, ⟨16, _⟩ => ⟨S32x4096x32, .f32⟩
  | .hbm, ⟨17, _⟩ => ⟨S_, .f32⟩
  | .hbm, ⟨18, _⟩ => ⟨S32x4096x32, .f32⟩
  | .hbm, ⟨19, _⟩ => ⟨S32x4096x32, .f32⟩
  | .hbm, ⟨20, _⟩ => ⟨S32x4096x32, .f32⟩
  | .hbm, ⟨21, _⟩ => ⟨S_, .f32⟩
  | .hbm, ⟨22, _⟩ => ⟨S32x4096x32, .f32⟩
  | .hbm, ⟨23, _⟩ => ⟨S32x4096x32, .f32⟩
  | .hbm, ⟨24, _⟩ => ⟨S32x4096x32, .f32⟩
  | .hbm, ⟨25, _⟩ => ⟨S32x4096x32, .f32⟩
  | .hbm, ⟨26, _⟩ => ⟨S1x1x32, .f32⟩
  | .hbm, ⟨27, _⟩ => ⟨S32x4096x32, .f32⟩
  | .hbm, ⟨28, _⟩ => ⟨S32x4096x32, .f32⟩
  | .hbm, ⟨29, _⟩ => ⟨S_, .f32⟩
  | .hbm, ⟨30, _⟩ => ⟨S32x4096, .f32⟩
  | .hbm, ⟨31, _⟩ => ⟨S_, .f32⟩
  | .hbm, ⟨32, _⟩ => ⟨S32x4096, .f32⟩
  | .hbm, ⟨33, _⟩ => ⟨S32x4096, .f32⟩
  | .hbm, ⟨34, _⟩ => ⟨S32x4096x1, .f32⟩
  | .hbm, ⟨35, _⟩ => ⟨S32x4096x32, .f32⟩
  | .hbm, ⟨36, _⟩ => ⟨S32x4096x32, .f32⟩
  | .hbm, ⟨37, _⟩ => ⟨S32x4096x32, .f32⟩
  | .hbm, ⟨38, _⟩ => ⟨S_, .f32⟩
  | .hbm, ⟨39, _⟩ => ⟨S32x4096, .f32⟩
  | .hbm, ⟨40, _⟩ => ⟨S32x4096x1, .f32⟩
  | .hbm, ⟨41, _⟩ => ⟨S32x4096x32, .f32⟩
  | .hbm, ⟨42, _⟩ => ⟨S32x4096x32, .f32⟩
  | .hbm, ⟨43, _⟩ => ⟨S32x32x256, .f32⟩
  | .hbm, ⟨44, _⟩ => ⟨S_, .f32⟩
  | .hbm, ⟨45, _⟩ => ⟨S32x32, .f32⟩
  | .hbm, ⟨46, _⟩ => ⟨S32x32x1, .f32⟩
  | .hbm, ⟨47, _⟩ => ⟨S1x32x256, .f32⟩
  | .hbm, ⟨48, _⟩ => ⟨S32x32x256, .f32⟩
  | .hbm, ⟨49, _⟩ => ⟨S32x32x256, .f32⟩
  | .hbm, ⟨50, _⟩ => ⟨S32x32x256, .f32⟩
  | .hbm, ⟨51, _⟩ => ⟨S32x32x256, .f32⟩
  | .hbm, ⟨52, _⟩ => ⟨S_, .f32⟩
  | .hbm, ⟨53, _⟩ => ⟨S32x256, .f32⟩
  | .hbm, ⟨54, _⟩ => ⟨S_, .f32⟩
  | .hbm, ⟨55, _⟩ => ⟨S32x256, .f32⟩
  | .hbm, ⟨56, _⟩ => ⟨S32x256, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  transposes_S32x256x4096_S32x4096x256_0_2_1 : S32x256x4096.Transposes [0, 2, 1] S32x4096x256
  reducesTo_S32x4096x256_S32x4096_d2 : S32x4096x256.ReducesTo [2] S32x4096
  h_S_ : 0 < S_.numel
  bcast_S32x4096_S32x4096x1_0_1 : S32x4096.BroadcastsInDim S32x4096x1 (![0, 1] : Fin 2 → Fin S32x4096x1.rank)
  reducesTo_S32x256_S32_d1 : S32x256.ReducesTo [1] S32
  bcast_S32_S1x1x32_2 : S32.BroadcastsInDim S1x1x32 (![2] : Fin 1 → Fin S1x1x32.rank)
  bcast_S32x4096x1_S32x4096x32_0_1_2 : S32x4096x1.BroadcastsInDim S32x4096x32 (![0, 1, 2] : Fin 3 → Fin S32x4096x32.rank)
  bcast_S1x1x32_S32x4096x32_0_1_2 : S1x1x32.BroadcastsInDim S32x4096x32 (![0, 1, 2] : Fin 3 → Fin S32x4096x32.rank)
  bcast_S_S32x4096x32 : S_.BroadcastsInDim S32x4096x32 (![] : Fin 0 → Fin S32x4096x32.rank)
  reducesTo_S32x4096x32_S32x4096_d2 : S32x4096x32.ReducesTo [2] S32x4096
  bcast_S_S32x4096 : S_.BroadcastsInDim S32x4096 (![] : Fin 0 → Fin S32x4096.rank)
  reducesTo_S32x4096x32_S32x32_d1 : S32x4096x32.ReducesTo [1] S32x32
  bcast_S32x32_S32x32x1_0_1 : S32x32.BroadcastsInDim S32x32x1 (![0, 1] : Fin 2 → Fin S32x32x1.rank)
  bcast_S32x256_S1x32x256_1_2 : S32x256.BroadcastsInDim S1x32x256 (![1, 2] : Fin 2 → Fin S1x32x256.rank)
  bcast_S32x32x1_S32x32x256_0_1_2 : S32x32x1.BroadcastsInDim S32x32x256 (![0, 1, 2] : Fin 3 → Fin S32x32x256.rank)
  bcast_S1x32x256_S32x32x256_0_1_2 : S1x32x256.BroadcastsInDim S32x32x256 (![0, 1, 2] : Fin 3 → Fin S32x32x256.rank)
  reducesTo_S32x32x256_S32x256_d1 : S32x32x256.ReducesTo [1] S32x256
  bcast_S_S32x256 : S_.BroadcastsInDim S32x256 (![] : Fin 0 → Fin S32x256.rank)
  dot_S32x4096x256_S32x256_S32x4096x32_2_1_01_0_n_n_wf : DotDims.WF S32x4096x256 S32x256 S32x4096x32 [2] [1] [0, 1] [0] [] []
  dot_S32x4096x32_S32x4096x256_S32x32x256_1_1_2_2_0_0_wf : DotDims.WF S32x4096x32 S32x4096x256 S32x32x256 [1] [1] [2] [2] [0] [0]

variable [Facts₀]

def dot_S32x4096x256_S32x256_S32x4096x32_2_1_01_0_n_n : DotDims S32x4096x256 S32x256 S32x4096x32 where
  lhsContracting := [2]
  rhsContracting := [1]
  lhsNonContracting := [0, 1]
  rhsNonContracting := [0]
  lhsBatch := []
  rhsBatch := []
  wf := dot_S32x4096x256_S32x256_S32x4096x32_2_1_01_0_n_n_wf
def dot_S32x4096x32_S32x4096x256_S32x32x256_1_1_2_2_0_0 : DotDims S32x4096x32 S32x4096x256 S32x32x256 where
  lhsContracting := [1]
  rhsContracting := [1]
  lhsNonContracting := [2]
  rhsNonContracting := [2]
  lhsBatch := [0]
  rhsBatch := [0]
  wf := dot_S32x4096x32_S32x4096x256_S32x32x256_1_1_2_2_0_0_wf

class Facts : Prop extends Facts₀ where

variable [Facts]
-- ==== Proof.Spec.lean ====
/-
  The encoding layer, as mathematics. Inputs: features `X b c n` (batch `b`, channel `c`, position `n = 64·h + w`),
  codewords `W k c` and per-codeword scales `S k`, all extended reals.

  For every batch and position, the squared distance of the feature vector to codeword `k` is expanded as
  `‖x‖² + ‖w_k‖² − 2⟨w_k, x⟩`, clamped at zero, and its square root `dist` is taken; the logits are `−dist · S k`,
  and `assign` is their softmax over the 32 codewords, computed the stable way (the row maximum `top` is
  subtracted before the exponential, and the weights are divided by their sum `mass`). `load b k` is the total
  assignment of batch `b` to codeword `k`.

  Two formulas for the layer's output are stated here over the SAME `assign`:
  * `residualMean`: the mean over the codewords of the assignment-weighted residuals
    `∑ₙ a(n,k)·x(c,n) − load(k)·w(k,c)`, divided by 32;
  * `shortcutMean`: `(∑ₙ x(c,n) − ∑ₖ load(k)·w(k,c)) · (1/32)`, which never forms the weighted features.
  They agree when every input is finite, because each softmax row then sums to one (the law module proves it).
  The float literals are kept as the words the programs spell; only the law module evaluates them.
-/
import Idealize.ShloMosaic.PureOps.Ideal
import Idealize.ShloMosaic.PureOps.Ideal.Laws
import Idealize.ShloMosaic.Lib.ValueIdx

noncomputable section

namespace Cert.Encoding

open Idealize.ShloMosaic

/-- The five float words of the two programs, at the extended reals: `0`, `2`, `−∞`, `1/32`, `32`. -/
abbrev zeroW : EReal := Ideal.ofBits .f32 0x00000000#32
abbrev twoW : EReal := Ideal.ofBits .f32 0x40000000#32
abbrev negInfW : EReal := Ideal.ofBits .f32 0xFF800000#32
abbrev invCodesW : EReal := Ideal.ofBits .f32 0x3D000000#32
abbrev codesW : EReal := Ideal.ofBits .f32 0x42000000#32

section Formulas

variable (X : Fin 32 → Fin 256 → Fin 4096 → EReal) (W : Fin 32 → Fin 256 → EReal) (S : Fin 32 → EReal)

/-- `‖x(b,·,n)‖²`. -/
def sqNorm (b : Fin 32) (n : Fin 4096) : EReal := ∑ c : Fin 256, X b c n * X b c n
/-- `‖w(k,·)‖²`. -/
def codeNorm (k : Fin 32) : EReal := ∑ c : Fin 256, W k c * W k c
/-- `⟨w(k,·), x(b,·,n)⟩`. -/
def inner (b : Fin 32) (n : Fin 4096) (k : Fin 32) : EReal := ∑ c : Fin 256, W k c * X b c n
/-- The distance of position `n`'s feature vector to codeword `k`, through the expanded square clamped at zero. -/
def dist (b : Fin 32) (n : Fin 4096) (k : Fin 32) : EReal :=
  Ideal.sqrt (max (sqNorm X b n + codeNorm W k - twoW * inner X W b n k) zeroW)
/-- The softmax logit `−dist · S k`, the negation written as `0 − dist`. -/
def logit (b : Fin 32) (n : Fin 4096) (k : Fin 32) : EReal := (zeroW - dist X W b n k) * S k
/-- The largest logit of the row, as a fold of `max` from `−∞`. -/
def top (b : Fin 32) (n : Fin 4096) : EReal :=
  (Finset.univ : Finset (Fin 32)).fold max negInfW (fun k => logit X W S b n k)
/-- The unnormalized softmax weight. -/
def weight (b : Fin 32) (n : Fin 4096) (k : Fin 32) : EReal := Ideal.exp (logit X W S b n k - top X W S b n)
/-- The row's normalizer. -/
def mass (b : Fin 32) (n : Fin 4096) : EReal := ∑ k : Fin 32, weight X W S b n k
/-- The soft assignment of position `n` to codeword `k`. -/
def assign (b : Fin 32) (n : Fin 4096) (k : Fin 32) : EReal := Ideal.div (weight X W S b n k) (mass X W S b n)
/-- The total assignment of batch `b` to codeword `k`. -/
def load (b : Fin 32) (k : Fin 32) : EReal := ∑ n : Fin 4096, assign X W S b n k

/-- The output without the weighted features: `(∑ₙ x − ∑ₖ load·w) · (1/32)`. -/
def shortcutMean (b : Fin 32) (c : Fin 256) : EReal :=
  ((∑ n : Fin 4096, X b c n) - ∑ k : Fin 32, load X W S b k * W k c) * invCodesW

/-- The output as the mean over the codewords of the weighted residuals. -/
def residualMean (b : Fin 32) (c : Fin 256) : EReal :=
  Ideal.div (∑ k : Fin 32, ((∑ n : Fin 4096, assign X W S b n k * X b c n) - load X W S b k * W k c)) codesW

end Formulas

/-! ## The argument arrays over coordinates -/

/-- The feature array `[32, 256, 64, 64]` read at batch, channel and flattened position `n = 64·h + w`. -/
def featuresOf (x : (⟨4, ![32, 256, 64, 64]⟩ : Shape).Idx → EReal) : Fin 32 → Fin 256 → Fin 4096 → EReal :=
  fun b c n => x (ValueIdx.ix4 b c (⟨n.val / 64, by have := n.isLt; omega⟩ : Fin 64) (⟨n.val % 64, by omega⟩ : Fin 64))
/-- The codeword array `[32, 256]` read at codeword and channel. -/
def codewordsOf (w : (⟨2, ![32, 256]⟩ : Shape).Idx → EReal) : Fin 32 → Fin 256 → EReal :=
  fun k c => w (ValueIdx.ix2 k c)
/-- The scale array `[32]` read at a codeword. -/
def scalesOf (s : (⟨1, ![32]⟩ : Shape).Idx → EReal) : Fin 32 → EReal :=
  fun k => s (ValueIdx.ix1 k)

end Cert.Encoding

end
-- ==== Proof.Law.lean ====
/-
  The closing law of the encoding layer: with finite inputs the two formulas of the specification agree.

  With finite inputs every intermediate quantity is a real number. The squared norms and inner products are finite
  sums of products of reals; the clamped expression is a nonnegative real, so its square root is the real square
  root; the logits are real; the row maximum, a fold of max from −∞ over 32 reals, is a real; the weights are
  exponentials of reals, hence positive reals, and so is their sum; each assignment is therefore a real, and the
  assignments of a row sum to one. In ℝ the law is then an exchange of the two summations:
  ∑ₖ (∑ₙ a(n,k)·x(n) − L(k)·w(k)) = ∑ₙ x(n)·(∑ₖ a(n,k)) − ∑ₖ L(k)·w(k) = ∑ₙ x(n) − ∑ₖ L(k)·w(k),
  and dividing by 32 is multiplying by 1/32.
-/
import proofs.«118770_j32856499814427_2_alg».proof.Proof.Spec

noncomputable section

namespace Cert.Encoding

open Idealize.ShloMosaic

/-! ## The five float words -/

theorem zeroW_eq : zeroW = 0 := by
  simp [Ideal.ofBits, Ideal.ieee]

theorem twoW_eq : twoW = ((2 : ℝ) : EReal) := by
  simp [Ideal.ofBits, Ideal.ieee, -EReal.coe_mul]; norm_num

theorem negInfW_eq : negInfW = ⊥ := by
  simp [Ideal.ofBits, Ideal.ieee]

theorem invCodesW_eq : invCodesW = ((1 / 32 : ℝ) : EReal) := by
  simp [Ideal.ofBits, Ideal.ieee, -EReal.coe_mul]; norm_num

theorem codesW_eq : codesW = ((32 : ℝ) : EReal) := by
  simp [Ideal.ofBits, Ideal.ieee, -EReal.coe_mul]; norm_num

/-! ## Coercions of finite sums, of a maximum, and of a fold of maxima -/

/-- A finite sum of reals, coerced, is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, coerced, is the maximum of the coercions. -/
theorem coe_max (a b : ℝ) : ((max a b : ℝ) : EReal) = max (a : EReal) (b : EReal) :=
  EReal.coe_strictMono.monotone.map_max

/-- The fold of max from −∞ over a nonempty finite family of reals is a real. -/
theorem fold_max_real {ι : Type*} [DecidableEq ι] (f : ι → ℝ) (s : Finset ι) (hs : s.Nonempty) :
    ∃ t : ℝ, s.fold max (⊥ : EReal) (fun k => (f k : EReal)) = (t : EReal) := by
  induction s using Finset.induction_on with
  | empty => exact absurd hs (by simp)
  | insert a s ha ih =>
    rw [Finset.fold_insert ha]
    rcases s.eq_empty_or_nonempty with rfl | hne
    · exact ⟨f a, by simp⟩
    · obtain ⟨t, ht⟩ := ih hne
      exact ⟨max (f a) t, by rw [ht, coe_max]⟩

/-! ## Every quantity of the specification is real when the inputs are -/

section Real

variable (x : Fin 32 → Fin 256 → Fin 4096 → ℝ) (w : Fin 32 → Fin 256 → ℝ) (s : Fin 32 → ℝ)

theorem sqNorm_coe (b : Fin 32) (n : Fin 4096) :
    sqNorm (fun b c n => (x b c n : EReal)) b n = ((∑ c : Fin 256, x b c n * x b c n : ℝ) : EReal) := by
  simp only [sqNorm, coe_sum, EReal.coe_mul]

theorem codeNorm_coe (k : Fin 32) :
    codeNorm (fun k c => (w k c : EReal)) k = ((∑ c : Fin 256, w k c * w k c : ℝ) : EReal) := by
  simp only [codeNorm, coe_sum, EReal.coe_mul]

theorem inner_coe (b : Fin 32) (n : Fin 4096) (k : Fin 32) :
    Cert.Encoding.inner (fun b c n => (x b c n : EReal)) (fun k c => (w k c : EReal)) b n k
      = ((∑ c : Fin 256, w k c * x b c n : ℝ) : EReal) := by
  simp only [Cert.Encoding.inner, coe_sum, EReal.coe_mul]

/-- The distance is a real: the clamped expanded square is a nonnegative real. -/
theorem dist_real (b : Fin 32) (n : Fin 4096) (k : Fin 32) :
    ∃ d : ℝ, Cert.Encoding.dist (fun b c n => (x b c n : EReal)) (fun k c => (w k c : EReal)) b n k = (d : EReal) := by
  unfold Cert.Encoding.dist
  rw [sqNorm_coe, codeNorm_coe, inner_coe, twoW_eq, zeroW_eq, ← EReal.coe_mul, ← EReal.coe_add, ← EReal.coe_sub,
    ← EReal.coe_zero, ← coe_max, Ideal.sqrt_coe, if_neg (not_lt.mpr (le_max_right _ _))]
  exact ⟨_, rfl⟩

/-- The logit is a real. -/
theorem logit_real (b : Fin 32) (n : Fin 4096) (k : Fin 32) :
    ∃ l : ℝ, logit (fun b c n => (x b c n : EReal)) (fun k c => (w k c : EReal)) (fun k => (s k : EReal)) b n k
      = (l : EReal) := by
  obtain ⟨d, hd⟩ := dist_real x w b n k
  unfold logit
  rw [hd, zeroW_eq, ← EReal.coe_zero, ← EReal.coe_sub, ← EReal.coe_mul]
  exact ⟨_, rfl⟩

/-- Each softmax row is a family of reals summing to one. -/
theorem assign_real (b : Fin 32) (n : Fin 4096) :
    ∃ a : Fin 32 → ℝ,
      (∀ k, assign (fun b c n => (x b c n : EReal)) (fun k c => (w k c : EReal)) (fun k => (s k : EReal)) b n k
        = (a k : EReal)) ∧ ∑ k : Fin 32, a k = 1 := by
  choose l hl using fun k => logit_real x w s b n k
  -- the row maximum is some real
  obtain ⟨t, ht⟩ : ∃ t : ℝ,
      top (fun b c n => (x b c n : EReal)) (fun k c => (w k c : EReal)) (fun k => (s k : EReal)) b n = (t : EReal) := by
    unfold top
    rw [negInfW_eq, funext hl]
    exact fold_max_real l Finset.univ Finset.univ_nonempty
  -- the weights are positive reals
  have hwt : ∀ k, weight (fun b c n => (x b c n : EReal)) (fun k c => (w k c : EReal)) (fun k => (s k : EReal)) b n k
      = ((Real.exp (l k - t) : ℝ) : EReal) := by
    intro k
    unfold weight
    rw [hl, ht, ← EReal.coe_sub, Ideal.exp_coe]
  -- and so is their sum
  have hm : mass (fun b c n => (x b c n : EReal)) (fun k c => (w k c : EReal)) (fun k => (s k : EReal)) b n
      = ((∑ k : Fin 32, Real.exp (l k - t) : ℝ) : EReal) := by
    unfold mass
    rw [coe_sum]
    exact Finset.sum_congr rfl fun k _ => hwt k
  have hpos : (0 : ℝ) < ∑ k : Fin 32, Real.exp (l k - t) :=
    Finset.sum_pos (fun k _ => Real.exp_pos _) Finset.univ_nonempty
  refine ⟨fun k => Real.exp (l k - t) * (1 / ∑ k : Fin 32, Real.exp (l k - t)), fun k => ?_, ?_⟩
  · unfold assign
    rw [hwt, hm, Ideal.div_coe hpos.ne', ← EReal.coe_mul]
  · rw [← Finset.sum_mul, mul_one_div_cancel hpos.ne']

end Real

/-! ## The law in ℝ -/

/-- When every row of `a` sums to one, the mean of the weighted residuals needs no weighted features. -/
theorem law_real {N K : Type*} [Fintype N] [Fintype K] (a : N → K → ℝ) (x : N → ℝ) (w : K → ℝ)
    (ha : ∀ n, ∑ k, a n k = 1) :
    ((∑ n, x n) - ∑ k, (∑ n, a n k) * w k) * (1 / 32)
      = (∑ k, ((∑ n, a n k * x n) - (∑ n, a n k) * w k)) * (1 / 32) := by
  congr 1
  rw [Finset.sum_sub_distrib, Finset.sum_comm]
  congr 1
  refine Finset.sum_congr rfl fun n _ => ?_
  rw [← Finset.sum_mul, ha, one_mul]

/-! ## The two formulas agree -/

theorem shortcut_eq_residual (X : Fin 32 → Fin 256 → Fin 4096 → EReal) (W : Fin 32 → Fin 256 → EReal) (S : Fin 32 → EReal)
    (hX : ∀ b c n, ∃ r : ℝ, X b c n = (r : EReal)) (hW : ∀ k c, ∃ r : ℝ, W k c = (r : EReal))
    (hS : ∀ k, ∃ r : ℝ, S k = (r : EReal))
    (b : Fin 32) (c : Fin 256) : shortcutMean X W S b c = residualMean X W S b c := by
  obtain ⟨x, rfl⟩ : ∃ x : Fin 32 → Fin 256 → Fin 4096 → ℝ, X = fun b c n => (x b c n : EReal) := by
    choose x hx using hX
    exact ⟨x, funext fun b => funext fun c => funext fun n => hx b c n⟩
  obtain ⟨w, rfl⟩ : ∃ w : Fin 32 → Fin 256 → ℝ, W = fun k c => (w k c : EReal) := by
    choose w hw using hW
    exact ⟨w, funext fun k => funext fun c => hw k c⟩
  obtain ⟨s, rfl⟩ : ∃ s : Fin 32 → ℝ, S = fun k => (s k : EReal) := by
    choose s hs using hS
    exact ⟨s, funext hs⟩
  choose a ha hsum using fun n => assign_real x w s b n
  have hL : shortcutMean (fun b c n => (x b c n : EReal)) (fun k c => (w k c : EReal)) (fun k => (s k : EReal)) b c
      = ((((∑ n : Fin 4096, x b c n) - ∑ k : Fin 32, (∑ n : Fin 4096, a n k) * w k c) * (1 / 32) : ℝ) : EReal) := by
    simp only [shortcutMean, load, ha, invCodesW_eq, EReal.coe_mul, EReal.coe_sub, coe_sum]
  have hR : residualMean (fun b c n => (x b c n : EReal)) (fun k c => (w k c : EReal)) (fun k => (s k : EReal)) b c
      = (((∑ k : Fin 32, ((∑ n : Fin 4096, a n k * x b c n) - (∑ n : Fin 4096, a n k) * w k c)) * (1 / 32) : ℝ) : EReal) := by
    unfold residualMean
    rw [codesW_eq, Ideal.div_coe (by norm_num : (32 : ℝ) ≠ 0)]
    simp only [load, ha, EReal.coe_mul, EReal.coe_sub, coe_sum]
  rw [hL, hR, law_real (fun n k => a n k) (fun n => x b c n) (fun k => w k c) hsum]

end Cert.Encoding

end
-- ==== Proof.Finite.lean ====
/-
  Finiteness out of the precondition. The precondition is the conjunction, over the three input arrays, of
  "every element x has |x| < +∞" (an and-reduction over all axes of the elementwise comparison). An extended
  real whose absolute value max x (−x) is strictly below ⊤ is neither ⊤ nor ⊥, hence a real number.
-/
import proofs.«118770_j32856499814427_2_alg».proof.Pre_finite_inputs
import Idealize.ShloMosaic.Lib.ReduceAll
import Idealize.ShloMosaic.Lib.ValueIdx
import Idealize.ShloMosaic.PureOps.Ideal.Laws

noncomputable section

namespace Cert.Encoding

open Idealize.ShloMosaic

/-- The rank-0 shape has a single index. -/
instance subsingleton_scalarIdx : Subsingleton Cert.Pre_finite_inputs.S_.Idx := ⟨fun a b => funext fun d => d.elim0⟩

/-- The word 0x7F800000 is +∞. -/
theorem posInf_word : Ideal.ofBits .f32 0x7F800000#32 = (⊤ : EReal) := by
  simp [Ideal.ofBits, Ideal.ieee]

/-- An extended real with |x| < +∞ is a real number. -/
theorem real_of_abs_lt_top (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  rw [Ideal.hostAbsf_def, Ideal.absf_def, Ideal.ofBits_def, posInf_word, Ideal.cmpf_def] at h
  induction x using EReal.rec with
  | bot => simp [Ideal.cmp] at h
  | coe r => exact ⟨r, rfl⟩
  | top => simp [Ideal.cmp] at h

theorem finite_of_pre [Cert.Pre_finite_inputs.Facts] (a0 : FVec Ideal Cert.Pre_finite_inputs.S32x256x64x64 .f32)
    (a1 : FVec Ideal Cert.Pre_finite_inputs.S32x256 .f32) (a2 : FVec Ideal Cert.Pre_finite_inputs.S32 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [Cert.Pre_finite_inputs.fn] at e
  unfold andi at e
  rw [IntOp.andi_eq_one, IntOp.andi_eq_one] at e
  obtain ⟨⟨e0, e1⟩, e2⟩ := e
  refine ⟨fun i => ?_, fun i => ?_, fun i => ?_⟩
  · exact real_of_abs_lt_top _ (Host.reduce_andi_all _ _ _ _ _ e0 i)
  · exact real_of_abs_lt_top _ (Host.reduce_andi_all _ _ _ _ _ e1 i)
  · exact real_of_abs_lt_top _ (Host.reduce_andi_all _ _ _ _ _ e2 i)

end Cert.Encoding

end
-- ==== Proof.ReferenceValue.lean ====
/-
  The reference program computes the mean over the codewords of the assignment-weighted residuals: its result
  array, read at batch b and channel c, is residualMean of the three argument arrays read over coordinates.
  The proof follows the program one array at a time: the features (a reshape of the two spatial axes into one
  followed by a swap of the last two axes), the two squared norms, the inner products, the distances, the logits,
  their row maximum, the softmax weights, their row sums, the assignments, the two contractions against the
  features and the codewords, and the final mean.
-/
import proofs.«118770_j32856499814427_2_alg».proof.Proof.Gen.ReferenceIdeal.Read
import proofs.«118770_j32856499814427_2_alg».proof.Proof.Spec

noncomputable section

namespace Cert.Encoding.Reference

open Cert.ReferenceIdeal Cert.ReferenceIdeal.Read Cert.ReferenceIdeal.Gen Idealize.ShloMosaic Idealize.ShloMosaic.ValueIdx
open Cert.Encoding

variable (x0 : (⟨S32x256x64x64, .f32⟩ : BufTy).Contents (Elt Ideal)) (x1 : (⟨S32x256, .f32⟩ : BufTy).Contents (Elt Ideal))
  (x2 : (⟨S32, .f32⟩ : BufTy).Contents (Elt Ideal))

/-- The codeword array at an index is the codeword function at its coordinates. -/
theorem codewords_apply (j : S32x256.Idx) : x1 j = codewordsOf x1 (j 0) (j 1) :=
  congrArg x1 (eq_ix2 j)

/-- The scale array at an index is the scale function at its coordinate. -/
theorem scales_apply (j : S32.Idx) : x2 j = scalesOf x2 (j 0) :=
  congrArg x2 (eq_ix1 j)

/-- The feature array [32, 4096, 256] (batch, position, channel): the input [32, 256, 64, 64] with its two
    spatial axes flattened to the position n = 64·h + w and the last two axes swapped. -/
theorem features_apply (i : S32x4096x256.Idx) :
    val_main_v1 (F := Ideal) x0 i = featuresOf x0 (i 0) (i 2) (i 1) := by
  rw [val_main_v1_apply, val_main_v0_apply]
  have h0 : (i 0).val < 32 := (i 0).isLt
  have h1 : (i 1).val < 4096 := (i 1).isLt
  have h2 : (i 2).val < 256 := (i 2).isLt
  show x0 _ = x0 _
  refine congrArg x0 (funext fun a => Fin.ext ?_)
  match a with
  | ⟨0, _⟩ => show (((i 0).val * 256 + (i 2).val) * 4096 + (i 1).val) / 1048576 = (i 0).val; omega
  | ⟨1, _⟩ => show (((i 0).val * 256 + (i 2).val) * 4096 + (i 1).val) / 4096 % 256 = (i 2).val; omega
  | ⟨2, _⟩ => show (((i 0).val * 256 + (i 2).val) * 4096 + (i 1).val) / 64 % 64 = (i 1).val / 64; omega
  | ⟨3, _⟩ => show (((i 0).val * 256 + (i 2).val) * 4096 + (i 1).val) % 64 = (i 1).val % 64; omega

/-- The squared norm of a feature vector. -/
theorem sqNorm_apply (i : S32x4096.Idx) :
    val_main_v3 (F := Ideal) x0 i = sqNorm (featuresOf x0) (i 0) (i 1) := by
  rw [val_main_v3_apply, val_main_cst_apply, Ideal.ofBits_def, Ideal.ofBits_zero_f32, zero_add]
  refine Finset.sum_congr rfl fun k _ => ?_
  rw [val_main_v2_apply, features_apply x0, Ideal.mulf_def]
  rfl

/-- The squared norm of a codeword. -/
theorem codeNorm_apply (i : S32.Idx) :
    val_main_v6 (F := Ideal) x1 i = codeNorm (codewordsOf x1) (i 0) := by
  rw [val_main_v6_apply, val_main_cst_0_apply, Ideal.ofBits_def, Ideal.ofBits_zero_f32, zero_add]
  refine Finset.sum_congr rfl fun k _ => ?_
  rw [val_main_v5_apply, codewords_apply x1, Ideal.mulf_def]
  rfl

/-- The inner product of a feature vector and a codeword (the program multiplies feature by codeword). -/
theorem inner_apply (i : S32x4096x32.Idx) :
    val_main_v7 (F := Ideal) x0 x1 i = inner (featuresOf x0) (codewordsOf x1) (i 0) (i 1) (i 2) := by
  rw [val_main_v7_apply]
  refine Finset.sum_congr rfl fun k _ => ?_
  rw [features_apply x0, codewords_apply x1]
  exact mul_comm _ _

/-- The zero word is the real zero. -/
theorem zeroW_eq : zeroW = 0 := Ideal.ofBits_zero_f32

/-- The word 0xFF800000 is −∞. -/
theorem negInf_word : Ideal.ofBits .f32 0xFF800000#32 = (⊥ : EReal) := by
  simp [Ideal.ofBits, Ideal.ieee]

/-- The distance of a feature vector to a codeword. -/
theorem dist_apply (i : S32x4096x32.Idx) :
    val_main_v17 (F := Ideal) x0 x1 i = dist (featuresOf x0) (codewordsOf x1) (i 0) (i 1) (i 2) := by
  rw [val_main_v17_apply, val_main_v16_apply, val_main_v14_apply, val_main_v11_apply, val_main_v13_apply,
    val_main_v9_apply, val_main_v4_apply, sqNorm_apply x0, val_main_v10_apply, val_main_v8_apply, codeNorm_apply x1,
    val_main_v12_apply, val_main_cst_1_apply, inner_apply x0 x1, val_main_v15_apply, val_main_cst_2_apply]
  rfl

/-- The logit: minus the distance (the program negates; the formula writes 0 − dist) times the codeword's scale. -/
theorem logit_apply (i : S32x4096x32.Idx) :
    val_main_v21 (F := Ideal) x0 x1 x2 i
      = logit (featuresOf x0) (codewordsOf x1) (scalesOf x2) (i 0) (i 1) (i 2) := by
  rw [val_main_v21_apply, val_main_v18_apply, dist_apply x0 x1, val_main_v20_apply, val_main_v19_apply, scales_apply x2]
  unfold logit
  rw [zeroW_eq, zero_sub]
  rfl

/-- An index of the reduced array [32, 4096] with coordinate k put back on the dropped last axis is (i 0, i 1, k). -/
theorem lift_last (h : S32x4096x32.Reduces [2] S32x4096) (i : S32x4096.Idx) (k : Fin (S32x4096x32.size 2)) :
    h.lift i k = ix3 (i 0) (i 1) (⟨k.val, k.isLt⟩ : Fin 32) := by
  funext c; apply Fin.ext
  fin_cases c <;> rfl

/-- The row maximum of the logits: the program's max-reduction from −∞ over the codeword axis, then one more
    maximum with −∞, which changes nothing. -/
theorem top_apply (i : S32x4096.Idx) :
    val_main_v24 (F := Ideal) x0 x1 x2 i = top (featuresOf x0) (codewordsOf x1) (scalesOf x2) (i 0) (i 1) := by
  have h : S32x4096x32.Reduces [2] S32x4096 := by decide
  have e : val_main_v22 (F := Ideal) x0 x1 x2 i
      = top (featuresOf x0) (codewordsOf x1) (scalesOf x2) (i 0) (i 1) := by
    unfold val_main_v22
    rw [Host.reduce_eq_fold_single FloatOps.maximumf _ _ reducesTo_S32x4096x32_S32x4096_d2 h h_S_]
    have hf : (val_main_v21 (F := Ideal) x0 x1 x2 ∘ h.lift i)
        = fun k : Fin 32 => logit (featuresOf x0) (codewordsOf x1) (scalesOf x2) (i 0) (i 1) k :=
      funext fun k => by
        exact (congrArg (val_main_v21 (F := Ideal) x0 x1 x2) (lift_last h i k)).trans
          (logit_apply x0 x1 x2 (ix3 (i 0) (i 1) (⟨k.val, k.isLt⟩ : Fin 32)))
    exact congrArg (fun f => Finset.fold max negInfW f (Finset.univ : Finset (Fin 32))) hf
  rw [val_main_v24_apply, val_main_v23_apply, val_main_cst_4_apply, e, Ideal.ofBits_def, Ideal.maximumf_def]
  refine max_eq_right ?_
  rw [negInf_word]
  exact bot_le

/-- The unnormalized softmax weight. -/
theorem weight_apply (i : S32x4096x32.Idx) :
    val_main_v28 (F := Ideal) x0 x1 x2 i
      = weight (featuresOf x0) (codewordsOf x1) (scalesOf x2) (i 0) (i 1) (i 2) := by
  rw [val_main_v28_apply, val_main_v27_apply, logit_apply x0 x1 x2, val_main_v26_apply, val_main_v25_apply,
    top_apply x0 x1 x2]
  rfl

/-- The row's normalizer. -/
theorem mass_apply (i : S32x4096.Idx) :
    val_main_v29 (F := Ideal) x0 x1 x2 i = mass (featuresOf x0) (codewordsOf x1) (scalesOf x2) (i 0) (i 1) := by
  rw [val_main_v29_apply, val_main_cst_5_apply, Ideal.ofBits_def, Ideal.ofBits_zero_f32, zero_add]
  refine Finset.sum_congr rfl fun k _ => ?_
  rw [weight_apply x0 x1 x2]
  rfl

/-- The soft assignment. -/
theorem assign_apply (i : S32x4096x32.Idx) :
    val_main_v32 (F := Ideal) x0 x1 x2 i
      = assign (featuresOf x0) (codewordsOf x1) (scalesOf x2) (i 0) (i 1) (i 2) := by
  rw [val_main_v32_apply, weight_apply x0 x1 x2, val_main_v31_apply, val_main_v30_apply, mass_apply x0 x1 x2]
  rfl

/-- The assignment-weighted sum of the features over the positions. -/
theorem weighted_apply (i : S32x32x256.Idx) :
    val_main_v33 (F := Ideal) x0 x1 x2 i
      = ∑ n : Fin 4096, assign (featuresOf x0) (codewordsOf x1) (scalesOf x2) (i 0) n (i 1) * featuresOf x0 (i 0) (i 2) n := by
  rw [val_main_v33_apply]
  refine Finset.sum_congr rfl fun n _ => ?_
  rw [assign_apply x0 x1 x2, features_apply x0]
  rfl

/-- The total assignment of a batch to a codeword. -/
theorem load_apply (i : S32x32.Idx) :
    val_main_v34 (F := Ideal) x0 x1 x2 i = load (featuresOf x0) (codewordsOf x1) (scalesOf x2) (i 0) (i 1) := by
  rw [val_main_v34_apply, val_main_cst_6_apply, Ideal.ofBits_def, Ideal.ofBits_zero_f32, zero_add]
  refine Finset.sum_congr rfl fun n _ => ?_
  rw [assign_apply x0 x1 x2]
  rfl

/-- The weighted residual of a batch, codeword and channel. -/
theorem residual_apply (i : S32x32x256.Idx) :
    val_main_v40 (F := Ideal) x0 x1 x2 i
      = (∑ n : Fin 4096, assign (featuresOf x0) (codewordsOf x1) (scalesOf x2) (i 0) n (i 1) * featuresOf x0 (i 0) (i 2) n)
        - load (featuresOf x0) (codewordsOf x1) (scalesOf x2) (i 0) (i 1) * codewordsOf x1 (i 1) (i 2) := by
  rw [val_main_v40_apply, weighted_apply x0 x1 x2, val_main_v39_apply, val_main_v37_apply, val_main_v35_apply,
    load_apply x0 x1 x2, val_main_v38_apply, val_main_v36_apply, codewords_apply x1]
  rfl

/-- THE REFERENCE'S RESULT: the mean over the codewords of the weighted residuals. -/
theorem reference_value :
    val_main_v43 (F := Ideal) x0 x1 x2
      = fun i => residualMean (featuresOf x0) (codewordsOf x1) (scalesOf x2) (i 0) (i 1) := by
  funext i
  rw [val_main_v43_apply, val_main_v41_apply, val_main_cst_7_apply, Ideal.ofBits_def, Ideal.ofBits_zero_f32, zero_add,
    val_main_v42_apply, val_main_cst_8_apply, Ideal.hostDivf_def]
  unfold residualMean
  refine congrArg (fun s => Ideal.div s _) (Finset.sum_congr rfl fun k _ => ?_)
  rw [residual_apply x0 x1 x2]
  rfl

end Cert.Encoding.Reference

end
-- ==== Proof.Layout.lean ====
/-
  Small facts about how a value is re-laid and reduced, each read at explicit coordinates: a vector viewed as a
  column, a column repeated along rows, and a sum or a maximum taken along one axis of a matrix. They hold for any
  extents; the encoding layer uses them at 32 codewords, 256 channels and 4096 positions.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Encoding.Layout

open Idealize.ShloMosaic Idealize.ShloMosaic.ValueIdx

variable {α : Type}

/-- A vector of length `a` viewed as an `[a, 1]` column reads, at `(i, 0)`, the vector at `i`. -/
theorem column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column repeated to `[a, b]` reads, at `(i, j)`, the column at row `i`. -/
theorem repeat_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The sum of a matrix along its first axis, at column `j`: the sum over the rows. -/
theorem sum_rows_apply {A B : ℕ} (v : FVec Ideal ⟨2, ![A, B]⟩ .f32) (acc : BitVec FTy.f32.bits)
    (h : (⟨2, ![A, B]⟩ : Shape).Reduces [0] ⟨1, ![B]⟩)
    (hφ : FKind.Formats .f32) (hacc : acc = FKind.add.neutral .f32 hφ) (j : Fin B) :
    multiReduction .add [0] ⟨1, ![B]⟩ v acc h hφ hacc (ix1 j) = ∑ k : Fin A, v (ix2 k j) := by
  refine (Ideal.multiReduction_add_single v acc h hφ hacc (ix1 j)).trans ?_
  refine Finset.sum_congr rfl fun k _ => congrArg v ?_
  funext a; match a with | ⟨0, _⟩ => rfl | ⟨1, _⟩ => rfl

/-- The sum of a matrix along its second axis, at row `i`: the sum over the columns. -/
theorem sum_cols_apply {A B : ℕ} (v : FVec Ideal ⟨2, ![A, B]⟩ .f32) (acc : BitVec FTy.f32.bits)
    (h : (⟨2, ![A, B]⟩ : Shape).Reduces [1] ⟨1, ![A]⟩)
    (hφ : FKind.Formats .f32) (hacc : acc = FKind.add.neutral .f32 hφ) (i : Fin A) :
    multiReduction .add [1] ⟨1, ![A]⟩ v acc h hφ hacc (ix1 i) = ∑ k : Fin B, v (ix2 i k) := by
  refine (Ideal.multiReduction_add_single v acc h hφ hacc (ix1 i)).trans ?_
  refine Finset.sum_congr rfl fun k _ => congrArg v ?_
  funext a; match a with | ⟨0, _⟩ => rfl | ⟨1, _⟩ => rfl

/-- The maximum of a matrix along its first axis, at column `j`: the fold of `max` over the rows from the starting word. -/
theorem max_rows_apply {A B : ℕ} (v : FVec Ideal ⟨2, ![A, B]⟩ .f32) (acc : BitVec FTy.f32.bits)
    (h : (⟨2, ![A, B]⟩ : Shape).Reduces [0] ⟨1, ![B]⟩)
    (hφ : FKind.Formats .f32) (hacc : acc = FKind.maximumf.neutral .f32 hφ) (j : Fin B) :
    multiReduction .maximumf [0] ⟨1, ![B]⟩ v acc h hφ hacc (ix1 j)
      = (Finset.univ : Finset (Fin A)).fold max (Ideal.ofBits .f32 acc) (fun k => v (ix2 k j)) := by
  refine (Ideal.multiReduction_maximumf_single v acc h hφ hacc (ix1 j)).trans ?_
  refine congrArg (fun f => (Finset.univ : Finset (Fin A)).fold max (Ideal.ofBits .f32 acc) f) ?_
  funext k
  refine congrArg v ?_
  funext a; match a with | ⟨0, _⟩ => rfl | ⟨1, _⟩ => rfl

end Cert.Encoding.Layout

end
-- ==== Proof.KernelRow.lean ====
/-
  What the kernel writes into one row of its output block, read at a channel.

  The kernel holds one batch's features as a `[256, 4096]` matrix (channel × position), the codewords twice (as they are
  and narrowed for the matrix product, the same extended reals), the scales and the squared codeword norms as
  `[32, 1]` columns. From these it forms the `[32, 4096]` matrix of soft assignments (codeword × position) and then the
  row `(∑ₙ x(c,n) − ∑ₖ (∑ₙ a(k,n))·w(k,c)) · (1/32)`. The two batches of a block go through the same operations, cut at
  different places by the program's text; they are one function.
-/
import proofs.«118770_j32856499814427_2_alg».proof.Proof.Gen.KernelIdeal.Skeleton
import proofs.«118770_j32856499814427_2_alg».proof.Proof.Spec
import proofs.«118770_j32856499814427_2_alg».proof.Proof.Layout

noncomputable section

namespace Cert.Encoding.Kernel

open Idealize.ShloMosaic Idealize.ShloMosaic.ValueIdx Cert.KernelIdeal Cert.KernelIdeal.Gen Cert.Encoding Cert.Encoding.Layout

/-- The exponential and the square root act entry by entry. -/
theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl

/-- The codeword operand of the product is read at the output's row and the contracted channel, -/
theorem product_lhs_row (i : S32x4096.Idx) (q : dot_S32x256_S256x4096_S32x4096_1_0_0_1_n_n.contr.Idx) : (dot_S32x256_S256x4096_S32x4096_1_0_0_1_n_n.lhsIdx i q 0).val = (i 0).val := by
  unfold DotDims.lhsIdx
  rw [dif_neg (show ¬(0 : Fin S32x256.rank) ∈ dot_S32x256_S256x4096_S32x4096_1_0_0_1_n_n.lhsBatch by decide), dif_pos (show (0 : Fin S32x256.rank) ∈ dot_S32x256_S256x4096_S32x4096_1_0_0_1_n_n.lhsNonContracting by decide)]
  rfl
theorem product_lhs_channel (i : S32x4096.Idx) (q : dot_S32x256_S256x4096_S32x4096_1_0_0_1_n_n.contr.Idx) : (dot_S32x256_S256x4096_S32x4096_1_0_0_1_n_n.lhsIdx i q 1).val = (q ⟨0, by decide⟩).val :=
  dot_S32x256_S256x4096_S32x4096_1_0_0_1_n_n.lhsIdx_val_of_single rfl i q
/-- and the feature operand at the contracted channel and the output's column. -/
theorem product_rhs_channel (i : S32x4096.Idx) (q : dot_S32x256_S256x4096_S32x4096_1_0_0_1_n_n.contr.Idx) : (dot_S32x256_S256x4096_S32x4096_1_0_0_1_n_n.rhsIdx i q 0).val = (q ⟨0, by decide⟩).val :=
  dot_S32x256_S256x4096_S32x4096_1_0_0_1_n_n.rhsIdx_val_of_single rfl i q
theorem product_rhs_col (i : S32x4096.Idx) (q : dot_S32x256_S256x4096_S32x4096_1_0_0_1_n_n.contr.Idx) : (dot_S32x256_S256x4096_S32x4096_1_0_0_1_n_n.rhsIdx i q 1).val = (i 1).val := by
  unfold DotDims.rhsIdx
  rw [dif_neg (show ¬(1 : Fin S256x4096.rank) ∈ dot_S32x256_S256x4096_S32x4096_1_0_0_1_n_n.rhsBatch by decide), dif_pos (show (1 : Fin S256x4096.rank) ∈ dot_S32x256_S256x4096_S32x4096_1_0_0_1_n_n.rhsNonContracting by decide)]
  rfl

/-- The matrix product of the `[32, 256]` codewords with a `[256, 4096]` feature matrix, into a zero accumulator, at
    `(k, n)`: the inner product over the 256 channels. -/
theorem product_apply (lhs : FVec Ideal S32x256 .bf16) (rhs : FVec Ideal S256x4096 .bf16) (k : Fin 32) (n : Fin 4096) :
    matmul dot_S32x256_S256x4096_S32x4096_1_0_0_1_n_n none lhs rhs (constant S32x4096 .f32 0x00000000#32) (ix2 k n)
      = ∑ c : Fin 256, lhs (ix2 k c) * rhs (ix2 c n) := by
  simp only [matmul]
  rw [Ideal.matmul_constant_zero_apply, ← Equiv.sum_comp (ValueIdx.contrEquiv1 dot_S32x256_S256x4096_S32x4096_1_0_0_1_n_n 256 rfl rfl).symm]
  refine Finset.sum_congr rfl fun c _ => ?_
  have hc := ValueIdx.contrEquiv1_symm_val dot_S32x256_S256x4096_S32x4096_1_0_0_1_n_n 256 rfl rfl c
  have el : dot_S32x256_S256x4096_S32x4096_1_0_0_1_n_n.lhsIdx (ix2 k n) ((ValueIdx.contrEquiv1 dot_S32x256_S256x4096_S32x4096_1_0_0_1_n_n 256 rfl rfl).symm c) = ix2 k c := funext fun a => Fin.ext (by
    match a with
    | ⟨0, _⟩ => exact product_lhs_row _ _
    | ⟨1, _⟩ => exact (product_lhs_channel _ _).trans hc)
  have er : dot_S32x256_S256x4096_S32x4096_1_0_0_1_n_n.rhsIdx (ix2 k n) ((ValueIdx.contrEquiv1 dot_S32x256_S256x4096_S32x4096_1_0_0_1_n_n 256 rfl rfl).symm c) = ix2 c n := funext fun a => Fin.ext (by
    match a with
    | ⟨0, _⟩ => exact (product_rhs_channel _ _).trans hc
    | ⟨1, _⟩ => exact product_rhs_col _ _)
  rw [el, er]

/-! ## The reductions of the body, each with its re-laying, read at coordinates -/

/-- The column sums of a `[256, 4096]` matrix, repeated over the 32 codeword rows. -/
def channelSums (v : FVec Ideal S256x4096 .f32) : FVec Ideal S32x4096 .f32 :=
  broadcastTo S32x4096 (shapeCast S1x4096 (multiReduction .add [0] S4096 v 0x00000000#32 reduces_S256x4096_S4096 (.inl rfl) rfl) shapeCasts_S4096_S1x4096) broadcasts_S1x4096_S32x4096
theorem channelSums_apply (v : FVec Ideal S256x4096 .f32) (k : Fin 32) (n : Fin 4096) :
    channelSums v (ix2 k n) = ∑ c : Fin 256, v (ix2 c n) :=
  (broadcastTo_1b_ab_apply _ _ k n).trans ((shapeCast_a_1a_apply _ _ (0 : Fin 1) n).trans (sum_rows_apply v _ _ _ _ n))

/-- The column sums of a `[32, 4096]` matrix, repeated over its rows. -/
def codeSums (v : FVec Ideal S32x4096 .f32) : FVec Ideal S32x4096 .f32 :=
  broadcastTo S32x4096 (shapeCast S1x4096 (multiReduction .add [0] S4096 v 0x00000000#32 reduces_S32x4096_S4096 (.inl rfl) rfl) shapeCasts_S4096_S1x4096) broadcasts_S1x4096_S32x4096
theorem codeSums_apply (v : FVec Ideal S32x4096 .f32) (k : Fin 32) (n : Fin 4096) :
    codeSums v (ix2 k n) = ∑ k' : Fin 32, v (ix2 k' n) :=
  (broadcastTo_1b_ab_apply _ _ k n).trans ((shapeCast_a_1a_apply _ _ (0 : Fin 1) n).trans (sum_rows_apply v _ _ _ _ n))

/-- The column maxima of a `[32, 4096]` matrix, repeated over its rows. -/
def codeMax (v : FVec Ideal S32x4096 .f32) : FVec Ideal S32x4096 .f32 :=
  broadcastTo S32x4096 (shapeCast S1x4096 (multiReduction .maximumf [0] S4096 v 0xFF800000#32 reduces_S32x4096_S4096 (.inl rfl) rfl) shapeCasts_S4096_S1x4096) broadcasts_S1x4096_S32x4096
theorem codeMax_apply (v : FVec Ideal S32x4096 .f32) (k : Fin 32) (n : Fin 4096) :
    codeMax v (ix2 k n) = (Finset.univ : Finset (Fin 32)).fold max negInfW (fun k' => v (ix2 k' n)) :=
  (broadcastTo_1b_ab_apply _ _ k n).trans ((shapeCast_a_1a_apply _ _ (0 : Fin 1) n).trans (max_rows_apply v _ _ _ _ n))

/-- The row sums of a `[32, 4096]` matrix, as a column repeated over the 256 channels. -/
def positionSums (v : FVec Ideal S32x4096 .f32) : FVec Ideal S32x256 .f32 :=
  broadcastTo S32x256 (shapeCast S32x1 (multiReduction .add [1] S32 v 0x00000000#32 reduces_S32x4096_S32 (.inl rfl) rfl) shapeCasts_S32_S32x1) broadcasts_S32x1_S32x256
theorem positionSums_apply (v : FVec Ideal S32x4096 .f32) (k : Fin 32) (c : Fin 256) :
    positionSums v (ix2 k c) = ∑ n : Fin 4096, v (ix2 k n) :=
  (repeat_column_apply _ _ k c).trans ((column_apply _ _ k (0 : Fin 1)).trans (sum_cols_apply v _ _ _ _ k))

/-- The row sums of the `[256, 4096]` features, turned into a `[1, 256]` row. -/
def featureSums (v : FVec Ideal S256x4096 .f32) : FVec Ideal S1x256 .f32 :=
  transpose S1x256 [1, 0] (shapeCast S256x1 (multiReduction .add [1] S256 v 0x00000000#32 reduces_S256x4096_S256 (.inl rfl) rfl) shapeCasts_S256_S256x1) transposes_S256x1_p1_0_S1x256
theorem featureSums_apply (v : FVec Ideal S256x4096 .f32) (u : Fin 1) (c : Fin 256) :
    featureSums v (ix2 u c) = ∑ n : Fin 4096, v (ix2 c n) :=
  (transpose_ix2_apply _ _ u c).trans ((column_apply _ _ c u).trans (sum_cols_apply v _ _ _ _ c))

/-- The column sums of a `[32, 256]` matrix, as a `[1, 256]` row. -/
def codewordSums (v : FVec Ideal S32x256 .f32) : FVec Ideal S1x256 .f32 :=
  shapeCast S1x256 (multiReduction .add [0] S256 v 0x00000000#32 reduces_S32x256_S256 (.inl rfl) rfl) shapeCasts_S256_S1x256
theorem codewordSums_apply (v : FVec Ideal S32x256 .f32) (u : Fin 1) (c : Fin 256) :
    codewordSums v (ix2 u c) = ∑ k : Fin 32, v (ix2 k c) :=
  (shapeCast_a_1a_apply _ _ u c).trans (sum_rows_apply v _ _ _ _ c)

/-- A batch's features, loaded as a `[1, 256, 4096]` piece and viewed `[256, 4096]`. -/
theorem features_apply (v54 : FVec Ideal S1x256x4096 .f32) (c : Fin 256) (n : Fin 4096) :
    k0_pay8 (F := Ideal) v54 (ix2 c n) = v54 (ix3 (0 : Fin 1) c n) := by
  unfold k0_pay8
  refine (shapeCast_1ab_ab_apply _ _ c n).trans ?_
  rw [shapeCast_self]

/-! ## The assignment matrix and the stored row -/

/-- The body's assignment matrix, with its reductions named. -/
theorem assignment_eq (v2 : FVec Ideal S32x256 .bf16) (v4 v6 : FVec Ideal S32x1 .f32) (v54 : FVec Ideal S1x256x4096 .f32) :
    k0_pay9 (F := Ideal) v2 v4 v6 v54 =
      divf (exp (subf
          (mulf (subf (broadcast S32x4096 (Scalar.ofBits .f32 0x00000000#32)) (sqrt (maximumf (subf (addf (channelSums (mulf (k0_pay8 v54) (k0_pay8 v54))) (broadcastTo S32x4096 v6 broadcasts_S32x1_S32x4096)) (mulf (broadcast S32x4096 (Scalar.ofBits .f32 0x40000000#32)) (matmul dot_S32x256_S256x4096_S32x4096_1_0_0_1_n_n none v2 (truncf .bf16 (k0_pay8 v54) bitsLt_bf16_f32) (constant S32x4096 .f32 0x00000000#32)))) (broadcast S32x4096 (Scalar.ofBits .f32 0x00000000#32))))) (broadcastTo S32x4096 v4 broadcasts_S32x1_S32x4096))
          (codeMax (mulf (subf (broadcast S32x4096 (Scalar.ofBits .f32 0x00000000#32)) (sqrt (maximumf (subf (addf (channelSums (mulf (k0_pay8 v54) (k0_pay8 v54))) (broadcastTo S32x4096 v6 broadcasts_S32x1_S32x4096)) (mulf (broadcast S32x4096 (Scalar.ofBits .f32 0x40000000#32)) (matmul dot_S32x256_S256x4096_S32x4096_1_0_0_1_n_n none v2 (truncf .bf16 (k0_pay8 v54) bitsLt_bf16_f32) (constant S32x4096 .f32 0x00000000#32)))) (broadcast S32x4096 (Scalar.ofBits .f32 0x00000000#32))))) (broadcastTo S32x4096 v4 broadcasts_S32x1_S32x4096)))))
        (codeSums (exp (subf
          (mulf (subf (broadcast S32x4096 (Scalar.ofBits .f32 0x00000000#32)) (sqrt (maximumf (subf (addf (channelSums (mulf (k0_pay8 v54) (k0_pay8 v54))) (broadcastTo S32x4096 v6 broadcasts_S32x1_S32x4096)) (mulf (broadcast S32x4096 (Scalar.ofBits .f32 0x40000000#32)) (matmul dot_S32x256_S256x4096_S32x4096_1_0_0_1_n_n none v2 (truncf .bf16 (k0_pay8 v54) bitsLt_bf16_f32) (constant S32x4096 .f32 0x00000000#32)))) (broadcast S32x4096 (Scalar.ofBits .f32 0x00000000#32))))) (broadcastTo S32x4096 v4 broadcasts_S32x1_S32x4096))
          (codeMax (mulf (subf (broadcast S32x4096 (Scalar.ofBits .f32 0x00000000#32)) (sqrt (maximumf (subf (addf (channelSums (mulf (k0_pay8 v54) (k0_pay8 v54))) (broadcastTo S32x4096 v6 broadcasts_S32x1_S32x4096)) (mulf (broadcast S32x4096 (Scalar.ofBits .f32 0x40000000#32)) (matmul dot_S32x256_S256x4096_S32x4096_1_0_0_1_n_n none v2 (truncf .bf16 (k0_pay8 v54) bitsLt_bf16_f32) (constant S32x4096 .f32 0x00000000#32)))) (broadcast S32x4096 (Scalar.ofBits .f32 0x00000000#32))))) (broadcastTo S32x4096 v4 broadcasts_S32x1_S32x4096)))))) := rfl

/-- The assignment matrix the kernel forms from one batch's features is the layer's soft assignment. -/
theorem assignment_apply (X : Fin 32 → Fin 256 → Fin 4096 → EReal) (W : Fin 32 → Fin 256 → EReal) (S : Fin 32 → EReal) (b : Fin 32)
    (v2 : FVec Ideal S32x256 .bf16) (v4 v6 : FVec Ideal S32x1 .f32) (v54 : FVec Ideal S1x256x4096 .f32)
    (hx : ∀ c n, v54 (ix3 (0 : Fin 1) c n) = X b c n) (hw : ∀ k c, v2 (ix2 k c) = W k c)
    (hs : ∀ k, v4 (ix2 k (0 : Fin 1)) = S k) (hc : ∀ k, v6 (ix2 k (0 : Fin 1)) = codeNorm W k)
    (k : Fin 32) (n : Fin 4096) :
    k0_pay9 (F := Ideal) v2 v4 v6 v54 (ix2 k n) = assign X W S b n k := by
  rw [assignment_eq]
  simp only [divf_apply, exp_apply, sqrt_apply, subf_apply, addf_apply, mulf_apply, maximumf_apply, broadcast_apply, truncf_apply,
    repeat_column_apply, channelSums_apply, codeSums_apply, codeMax_apply, product_apply, features_apply, hx, hw, hs, hc]
  rfl

/-- The body's stored row, with its reductions named. -/
theorem row_eq (v0 : FVec Ideal S32x256 .f32) (v56 : FVec Ideal S256x4096 .f32) (v83 : FVec Ideal S32x4096 .f32) :
    k0_pay1 (F := Ideal) v0 v56 v83 =
      shapeCast S1x1x256 (mulf (subf (featureSums v56) (codewordSums (mulf (positionSums v83) v0))) (broadcast S1x256 (Scalar.ofBits .f32 0x3D000000#32))) shapeCasts_S1x256_S1x1x256 := rfl

/-- The row the kernel stores, from the codewords, one batch's features and its assignment matrix. -/
theorem row_apply (X : Fin 32 → Fin 256 → Fin 4096 → EReal) (W : Fin 32 → Fin 256 → EReal) (S : Fin 32 → EReal) (b : Fin 32)
    (v0 : FVec Ideal S32x256 .f32) (v56 : FVec Ideal S256x4096 .f32) (v83 : FVec Ideal S32x4096 .f32)
    (hw : ∀ k c, v0 (ix2 k c) = W k c) (hx : ∀ c n, v56 (ix2 c n) = X b c n)
    (ha : ∀ k n, v83 (ix2 k n) = assign X W S b n k) (c : Fin 256) :
    k0_pay1 (F := Ideal) v0 v56 v83 (ix3 (0 : Fin 1) (0 : Fin 1) c) = shortcutMean X W S b c := by
  rw [row_eq]
  simp only [subf_apply, mulf_apply, broadcast_apply, shapeCast_ab_1ab_apply, featureSums_apply, codewordSums_apply,
    positionSums_apply, hw, hx, ha]
  rfl

/-- The first batch of a block goes through the same operations as the second. -/
theorem first_row_eq (v0 : Vec Ideal S32x256 .f32) (v1 : Vec Ideal S32x256 .bf16) (v3 v5 : Vec Ideal S32x1 .f32) (v8 : Vec Ideal S1x256x4096 .f32) :
    k0_pay7 (F := Ideal) v0 (k0_pay5 v8) (k0_pay6 v1 v3 v5 v8)
      = k0_pay1 v0 (k0_pay8 v8) (k0_pay9 (k0_pay2 v1) (k0_pay3 v3) (k0_pay4 v5) v8) := rfl

end Cert.Encoding.Kernel

end
-- ==== Proof.KernelInputs.lean ====
/-
  What each input array of the kernel's region holds when the region is entered, read at coordinates: the feature
  array flattened over its two spatial axes, the codewords (as given, and narrowed, which changes nothing at the
  extended reals), the scales as a column, and the squared norms of the codewords as a column.
-/
import proofs.«118770_j32856499814427_2_alg».proof.Proof.Gen.KernelIdeal.Frame
import proofs.«118770_j32856499814427_2_alg».proof.Proof.Spec
import proofs.«118770_j32856499814427_2_alg».proof.Proof.Layout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.Encoding.Kernel

open Idealize.ShloMosaic Idealize.ShloMosaic.TcCoe Idealize.ShloMosaic.ValueIdx Idealize.SL.Sem
open Cert.KernelIdeal Cert.KernelIdeal.Gen Cert.Encoding

/-! ## The re-laid values read at coordinates, over any argument arrays -/

/-- The features flattened over the two spatial axes: position `n` is row `n / 64`, column `n % 64`. -/
theorem flatten_read (x : (⟨S32x256x64x64, .f32⟩ : BufTy).Contents (Elt Ideal)) (b : Fin 32) (ch : Fin 256) (n : Fin 4096) :
    shapeCast S32x256x4096 x shapeCasts_S32x256x64x64_S32x256x4096 (ix3 b ch n) = featuresOf x b ch n := by
  unfold featuresOf
  refine shapeCast_apply x shapeCasts_S32x256x64x64_S32x256x4096 (ix3 b ch n) _ ?_
  rw [Shape.rowMajor_val_four, Shape.rowMajor_val_three]
  show ((b.val * 256 + ch.val) * 64 + n.val / 64) * 64 + n.val % 64 = (b.val * 256 + ch.val) * 4096 + n.val
  omega

/-- The squared norms of the codewords, summed on the host from the zero word and laid as a column. -/
theorem norms_read (w : (⟨S32x256, .f32⟩ : BufTy).Contents (Elt Ideal)) (k : Fin 32) (u : Fin 1) :
    broadcastInDim S32x1 ![0] bcast_S32_S32x1_0
        (Host.reduceAdd (F := Ideal) (mulf w w) (constant (F := Ideal) S_ .f32 0x00000000#32) reducesTo_S32x256_S32_d1 h_S_)
        (ix2 k u)
      = codeNorm (codewordsOf w) k := by
  rw [broadcastInDim_apply ![0] bcast_S32_S32x1_0 _ (ix2 k u) (ix1 k) (fun a => match a with
      | ⟨0, _⟩ => by show k.val = if (32 : Nat) = 1 then 0 else k.val; rw [if_neg (by decide)])]
  simp only [Host.reduceAdd, Ideal.hostReduceAdd_def]
  rw [Ideal.hostReduceAdd_single reducesTo_S32x256_S32_d1 (by decide), constant_apply, Ideal.ofBits_zero_f32, zero_add]
  unfold codeNorm codewordsOf
  refine Finset.sum_congr rfl fun ch _ => ?_
  rw [mulf_apply]
  have e : (Shape.Reduces.lift (by decide : S32x256.Reduces [1] S32) (ix1 k) ch) = ix2 k ch :=
    funext fun a => Fin.ext (by match a with | ⟨0, _⟩ => rfl | ⟨1, _⟩ => rfl)
  rw [e]
  rfl

/-! ## The arrays the region finds -/

variable (m : (ℓ : Loc nD τ sig) → Buf (Elt Ideal) ℓ) (c : Dev nD)

theorem features_term :
    (V (F := Ideal) m c main_v0 : S32x256x4096.Idx → EReal)
      = shapeCast S32x256x4096 (m ((c : Thread nD τ).loc main_arg0) : S32x256x64x64.Idx → EReal)
          shapeCasts_S32x256x64x64_S32x256x4096 := by
  show StableHlo.after hostOps0 (fun b => m (c, b)) (Proc.devRef .tc main_v0) = _
  after_results
  rfl

theorem scales_term :
    (V (F := Ideal) m c main_v1 : S32x1.Idx → EReal)
      = shapeCast S32x1 (m ((c : Thread nD τ).loc main_arg2) : S32.Idx → EReal) shapeCasts_S32_S32x1 := by
  show StableHlo.after hostOps0 (fun b => m (c, b)) (Proc.devRef .tc main_v1) = _
  after_results
  rfl

theorem code_norms_term :
    (V (F := Ideal) m c main_v4 : S32x1.Idx → EReal)
      = broadcastInDim S32x1 ![0] bcast_S32_S32x1_0
          (Host.reduceAdd (F := Ideal)
            (mulf (m ((c : Thread nD τ).loc main_arg1) : (⟨S32x256, .f32⟩ : BufTy).Contents (Elt Ideal))
              (m ((c : Thread nD τ).loc main_arg1)))
            (constant (F := Ideal) S_ .f32 0x00000000#32) reducesTo_S32x256_S32_d1 h_S_) := by
  show StableHlo.after hostOps0 (fun b => m (c, b)) (Proc.devRef .tc main_v4) = _
  after_results

theorem narrowed_term :
    (V (F := Ideal) m c main_v5 : S32x256.Idx → EReal)
      = truncf (F := Ideal) .bf16 (m ((c : Thread nD τ).loc main_arg1) : (⟨S32x256, .f32⟩ : BufTy).Contents (Elt Ideal))
          bitsLt_bf16_f32 := by
  show StableHlo.after hostOps0 (fun b => m (c, b)) (Proc.devRef .tc main_v5) = _
  after_results

/-- The flattened features at batch `b`, channel `ch`, position `n`. -/
theorem features_array (b : Fin 32) (ch : Fin 256) (n : Fin 4096) :
    (V (F := Ideal) m c main_v0 : S32x256x4096.Idx → EReal) (ix3 b ch n)
      = featuresOf (m ((c : Thread nD τ).loc main_arg0)) b ch n := by
  rw [features_term]
  exact flatten_read _ b ch n

/-- The codewords, which no host operation writes. -/
theorem codewords_array (k : Fin 32) (ch : Fin 256) :
    (V (F := Ideal) m c main_arg1 : S32x256.Idx → EReal) (ix2 k ch)
      = codewordsOf (m ((c : Thread nD τ).loc main_arg1)) k ch := by
  rw [V_main_arg1]
  rfl

/-- The narrowed codewords: at the extended reals narrowing is the identity. -/
theorem narrowed_codewords_array (k : Fin 32) (ch : Fin 256) :
    (V (F := Ideal) m c main_v5 : S32x256.Idx → EReal) (ix2 k ch)
      = codewordsOf (m ((c : Thread nD τ).loc main_arg1)) k ch := by
  rw [narrowed_term]
  rfl

/-- The scales, as a column. -/
theorem scales_array (k : Fin 32) (u : Fin 1) :
    (V (F := Ideal) m c main_v1 : S32x1.Idx → EReal) (ix2 k u)
      = scalesOf (m ((c : Thread nD τ).loc main_arg2)) k := by
  rw [scales_term]
  exact Layout.column_apply _ shapeCasts_S32_S32x1 k u

/-- The squared norms of the codewords, as a column. -/
theorem code_norms_array (k : Fin 32) (u : Fin 1) :
    (V (F := Ideal) m c main_v4 : S32x1.Idx → EReal) (ix2 k u)
      = codeNorm (codewordsOf (m ((c : Thread nD τ).loc main_arg1))) k := by
  rw [code_norms_term]
  exact norms_read _ k u

end Cert.Encoding.Kernel

end
-- ==== Proof.KernelBlocks.lean ====
/-
  From the blocks the kernel writes to the whole result array.

  The grid has 16 points; point `t` handles batches `2t` and `2t + 1`: it is given the `[2, 256, 4096]` block of the
  features at block row `t`, all of the codewords (twice), the scales and the squared codeword norms, and writes back the
  `[2, 1, 256]` block of the `[32, 1, 256]` result at block row `t`. Row `r` of that block, at channel `c`, is the layer's
  `shortcutMean` at batch `2t + r` and channel `c`; the 16 blocks tile the result, which a last reshape views as `[32, 256]`.
-/
import proofs.«118770_j32856499814427_2_alg».proof.Proof.Gen.KernelIdeal.Frame
import proofs.«118770_j32856499814427_2_alg».proof.Proof.KernelRow
import proofs.«118770_j32856499814427_2_alg».proof.Proof.KernelInputs
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.Encoding.Kernel

open Idealize.ShloMosaic.ValueIdx Cert.KernelIdeal Cert.KernelIdeal.Gen Cert.Encoding

variable (m : (ℓ : Loc nD τ sig) → Buf (Elt Ideal) ℓ) (ρ : Dev nD → PrngReg)

/-- The printed index maps over the grid: the feature and result windows move by one block row per point, the other
    four windows stay at block (0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The batch a point handles in row `r` of its block. -/
def batchOf (t : Fin cfg0.N) (r : Fin 2) : Fin 32 := ⟨2 * t.val + r.val, by have hN : cfg0.N = 16 := N_0; have := t.isLt; have := r.isLt; omega⟩

/-- The feature block at point `t`: rows `2t`, `2t + 1` of the `[32, 256, 4096]` features. -/
theorem features_block (c : Dev nD) (t : Fin cfg0.N) (r : Fin 2) (ch : Fin 256) (n : Fin 4096) :
    (iblk m c 0 t : Vec Ideal S2x256x4096 .f32) (ix3 r ch n) = V m c main_v0 (ix3 (batchOf t r) ch n) := by
  obtain ⟨h0, h1, h2, -⟩ := index_facts t
  unfold iblk
  rw [View.read_apply]
  show V m c main_v0 _ = V m c main_v0 _
  congr 1
  funext a
  apply Fin.ext
  match a with
  | ⟨0, _⟩ => show win0_0.index t 0 * 2 + 1 * r.val = 2 * t.val + r.val; rw [h0]; omega
  | ⟨1, _⟩ => show win0_0.index t 1 * 256 + 1 * ch.val = ch.val; rw [h1]; omega
  | ⟨2, _⟩ => show win0_0.index t 2 * 4096 + 1 * n.val = n.val; rw [h2]; omega

/-- The other four windows hold their whole arrays at every point. -/
theorem codewords_block (c : Dev nD) (t : Fin cfg0.N) (k : Fin 32) (ch : Fin 256) :
    (iblk m c 1 t : Vec Ideal S32x256 .f32) (ix2 k ch) = V m c main_arg1 (ix2 k ch) := by
  obtain ⟨-, -, -, h0, h1, -⟩ := index_facts t
  unfold iblk
  rw [View.read_apply]
  show V m c main_arg1 _ = V m c main_arg1 _
  congr 1
  funext a
  apply Fin.ext
  match a with
  | ⟨0, _⟩ => show win0_1.index t 0 * 32 + 1 * k.val = k.val; rw [h0]; omega
  | ⟨1, _⟩ => show win0_1.index t 1 * 256 + 1 * ch.val = ch.val; rw [h1]; omega

theorem narrowed_codewords_block (c : Dev nD) (t : Fin cfg0.N) (k : Fin 32) (ch : Fin 256) :
    (iblk m c 2 t : Vec Ideal S32x256 .bf16) (ix2 k ch) = V m c main_v5 (ix2 k ch) := by
  obtain ⟨-, -, -, -, -, h0, h1, -⟩ := index_facts t
  unfold iblk
  rw [View.read_apply]
  show V m c main_v5 _ = V m c main_v5 _
  congr 1
  funext a
  apply Fin.ext
  match a with
  | ⟨0, _⟩ => show win0_2.index t 0 * 32 + 1 * k.val = k.val; rw [h0]; omega
  | ⟨1, _⟩ => show win0_2.index t 1 * 256 + 1 * ch.val = ch.val; rw [h1]; omega

theorem scales_block (c : Dev nD) (t : Fin cfg0.N) (k : Fin 32) (u : Fin 1) :
    (iblk m c 3 t : Vec Ideal S32x1 .f32) (ix2 k u) = V m c main_v1 (ix2 k u) := by
  obtain ⟨-, -, -, -, -, -, -, h0, h1, -⟩ := index_facts t
  unfold iblk
  rw [View.read_apply]
  show V m c main_v1 _ = V m c main_v1 _
  congr 1
  funext a
  apply Fin.ext
  match a with
  | ⟨0, _⟩ => show win0_3.index t 0 * 32 + 1 * k.val = k.val; rw [h0]; omega
  | ⟨1, _⟩ => show win0_3.index t 1 * 1 + 1 * u.val = u.val; rw [h1]; omega

theorem code_norms_block (c : Dev nD) (t : Fin cfg0.N) (k : Fin 32) (u : Fin 1) :
    (iblk m c 4 t : Vec Ideal S32x1 .f32) (ix2 k u) = V m c main_v4 (ix2 k u) := by
  obtain ⟨-, -, -, -, -, -, -, -, -, h0, h1, -⟩ := index_facts t
  unfold iblk
  rw [View.read_apply]
  show V m c main_v4 _ = V m c main_v4 _
  congr 1
  funext a
  apply Fin.ext
  match a with
  | ⟨0, _⟩ => show win0_4.index t 0 * 32 + 1 * k.val = k.val; rw [h0]; omega
  | ⟨1, _⟩ => show win0_4.index t 1 * 1 + 1 * u.val = u.val; rw [h1]; omega

/-! ## One stored row -/

/-- The layer's inputs as launched on core `c`, over coordinates. -/
abbrev FX (c : Dev nD) : Fin 32 → Fin 256 → Fin 4096 → EReal := featuresOf (m ((c : Thread nD τ).loc main_arg0))
abbrev FW (c : Dev nD) : Fin 32 → Fin 256 → EReal := codewordsOf (m ((c : Thread nD τ).loc main_arg1))
abbrev FS (c : Dev nD) : Fin 32 → EReal := scalesOf (m ((c : Thread nD τ).loc main_arg2))

theorem zeros2 : (![0, 0] : Fin 2 → Nat) = fun _ => 0 := funext fun a => by fin_cases a <;> rfl

/-- The row the body stores for a batch `b` whose features it loaded as the piece `v54`: the layer's shortcut formula. -/
theorem stored_row (c : Dev nD) (t : Fin cfg0.N) (b : Fin 32) (v54 : FVec Ideal S1x256x4096 .f32)
    (hx : ∀ ch n, v54 (ix3 (0 : Fin 1) ch n) = FX m c b ch n) (ch : Fin 256) :
    k0_pay1 (F := Ideal) (View.ld (iblk m c 1 t) r0_0) (k0_pay8 v54)
        (k0_pay9 (k0_pay2 (View.ld (iblk m c 2 t) r0_0)) (k0_pay3 (View.ld (iblk m c 3 t) r0_1)) (k0_pay4 (View.ld (iblk m c 4 t) r0_1)) v54)
        (ix3 (0 : Fin 1) (0 : Fin 1) ch)
      = shortcutMean (FX m c) (FW m c) (FS m c) b ch := by
  refine row_apply (FX m c) (FW m c) (FS m c) b _ _ _ (fun k ch' => ?_) (fun ch' n => ?_) (fun k n => ?_) ch
  · rw [View.ld_unit_zero (S := S32x256) zeros2]
    exact (codewords_block m c t k ch').trans (codewords_array m c k ch')
  · exact (features_apply v54 ch' n).trans (hx ch' n)
  · refine assignment_apply (FX m c) (FW m c) (FS m c) b _ _ _ v54 hx (fun k ch' => ?_) (fun k => ?_) (fun k => ?_) k n
    · unfold k0_pay2
      rw [shapeCast_self, View.ld_unit_zero (S := S32x256) zeros2]
      exact (narrowed_codewords_block m c t k ch').trans (narrowed_codewords_array m c k ch')
    · unfold k0_pay3
      rw [shapeCast_self, View.ld_unit_zero (S := S32x1) zeros2]
      exact (scales_block m c t k 0).trans (scales_array m c k 0)
    · unfold k0_pay4
      rw [shapeCast_self, View.ld_unit_zero (S := S32x1) zeros2]
      exact (code_norms_block m c t k 0).trans (code_norms_array m c k 0)

/-! ## The block a point writes back -/

/-- What point `t` leaves in the result window's buffer, as one function of the buffer's index. -/
def blockValue (c : Dev nD) (t : Fin cfg0.N) : Vec Ideal S2x1x256 .f32 :=
  fun y => shortcutMean (FX m c) (FW m c) (FS m c) (batchOf t (y 0)) (y 2)

theorem block_eq (c : Dev nD) (t : Fin cfg0.N) :
    out0_5 (F := Ideal) (iblk m c 0 t) (iblk m c 1 t) (iblk m c 2 t) (iblk m c 3 t) (iblk m c 4 t) = blockValue m c t := by
  funext y
  unfold out0_5
  refine View.canon_apply_of_pieces (Val := Elt Ideal) (blockValue m c t) _ ?_ y (cover0_5 _ _ y)
  intro p hp x
  simp only [List.mem_cons, List.mem_nil_iff, or_false] at hp
  rcases hp with rfl | rfl
  · -- the second row of the block: batch 2t + 1, from the feature piece at row 1
    dsimp only at x ⊢
    obtain ⟨u0, u1, ch, rfl⟩ : ∃ (u0 u1 : Fin 1) (ch : Fin 256), x = ix3 u0 u1 ch := ⟨x 0, x 1, x 2, eq_ix3 x⟩
    obtain rfl : u0 = 0 := Subsingleton.elim _ _
    obtain rfl : u1 = 0 := Subsingleton.elim _ _
    refine (stored_row m c t (batchOf t 1) _ (fun ch' n => ?_) ch).trans ?_
    · refine Eq.trans ?_ ((features_block m c t 1 ch' n).trans (features_array m c _ ch' n))
      show (iblk m c 0 t : Vec Ideal S2x256x4096 .f32) (r0_4.emb (ix3 (0 : Fin 1) ch' n)) = _
      congr 1
      funext a
      apply Fin.ext
      match a with
      | ⟨0, _⟩ => simp only [Rect.emb_apply, Rect.off_unit, Rect.stride_unit, Nat.one_mul]; rfl
      | ⟨1, _⟩ => simp only [Rect.emb_apply, Rect.off_unit, Rect.stride_unit, Nat.one_mul]; exact Nat.zero_add _
      | ⟨2, _⟩ => simp only [Rect.emb_apply, Rect.off_unit, Rect.stride_unit, Nat.one_mul]; exact Nat.zero_add _
    · unfold blockValue
      congr 1
      all_goals apply Fin.ext
      all_goals simp only [Rect.emb_apply, Rect.off_unit, Rect.stride_unit, Nat.one_mul]
      all_goals first | rfl | exact (Nat.zero_add _).symm
  · -- the first row of the block: batch 2t, from the feature piece at row 0
    dsimp only at x ⊢
    obtain ⟨u0, u1, ch, rfl⟩ : ∃ (u0 u1 : Fin 1) (ch : Fin 256), x = ix3 u0 u1 ch := ⟨x 0, x 1, x 2, eq_ix3 x⟩
    obtain rfl : u0 = 0 := Subsingleton.elim _ _
    obtain rfl : u1 = 0 := Subsingleton.elim _ _
    rw [first_row_eq]
    refine (stored_row m c t (batchOf t 0) _ (fun ch' n => ?_) ch).trans ?_
    · refine Eq.trans ?_ ((features_block m c t 0 ch' n).trans (features_array m c _ ch' n))
      show (iblk m c 0 t : Vec Ideal S2x256x4096 .f32) (r0_2.emb (ix3 (0 : Fin 1) ch' n)) = _
      congr 1
      funext a
      apply Fin.ext
      match a with
      | ⟨0, _⟩ => simp only [Rect.emb_apply, Rect.off_unit, Rect.stride_unit, Nat.one_mul]; rfl
      | ⟨1, _⟩ => simp only [Rect.emb_apply, Rect.off_unit, Rect.stride_unit, Nat.one_mul]; exact Nat.zero_add _
      | ⟨2, _⟩ => simp only [Rect.emb_apply, Rect.off_unit, Rect.stride_unit, Nat.one_mul]; exact Nat.zero_add _
    · unfold blockValue
      congr 1
      all_goals apply Fin.ext
      all_goals simp only [Rect.emb_apply, Rect.off_unit, Rect.stride_unit, Nat.one_mul]
      all_goals first | rfl | exact (Nat.zero_add _).symm

/-! ## The result array -/

/-- The `[32, 1, 256]` array the region leaves: the layer's shortcut formula at batch and channel. -/
def regionValue (c : Dev nD) : Buf (Elt Ideal) ((c : Thread nD τ).loc main_v6) :=
  fun i => shortcutMean (FX m c) (FW m c) (FS m c) (i 0) (i 2)

/-- What point `t` writes back is block `t` of that array. -/
theorem written_back (c : Dev nD) (t : Fin cfg0.N) :
    (dats m 0 c).flushed 5 t = ((cfg0.win 5).blk t).view.read (Elt Ideal) (regionValue m c) := by
  obtain ⟨-, -, -, -, -, -, -, -, -, -, -, h0, h1, h2⟩ := index_facts t
  show (cfg0.win 5).cut (grid0.coords t) ((dats m 0 c).after 5 t) = _
  rw [after0_5 m c t, block_eq m c t]
  funext y
  show blockValue m c t y = regionValue m c (((cfg0.win 5).blk t).view.emb y)
  unfold blockValue regionValue
  congr 1
  · apply Fin.ext
    show 2 * t.val + (y 0).val = win0_5.index t 0 * 2 + 1 * (y 0).val
    rw [h0]; omega
  · apply Fin.ext
    show (y 2).val = win0_5.index t 2 * 256 + 1 * (y 2).val
    rw [h2]; omega

/-- An index of the result array is in point `t`'s block iff each coordinate is in the block's range on its axis. -/
theorem mem_block (t : Fin cfg0.N) (i : S32x1x256.Idx) :
    i ∈ ((cfg0.win 5).blk t).view.set ↔ ∀ a : Fin 3, win0_5.index t a * S2x1x256.size a ≤ (i a).val ∧ (i a).val < win0_5.index t a * S2x1x256.size a + S2x1x256.size a := by
  show i ∈ ((View.whole main_v6).slice (win0_5.rect t)).set ↔ _
  rw [View.set_slice_whole, Rect.mem_set_unit]
  exact Iff.rfl

/-- Every index of the result array is in some point's block: batch `b` is in point `b / 2`'s. -/
theorem covered (i : S32x1x256.Idx) :
    ∃ t : Fin cfg0.N, (cfg0.win 5).flush t = true ∧ i ∈ ((cfg0.win 5).blk t).view.set := by
  have hN : cfg0.N = 16 := N_0
  have hi0 : (i 0).val < 32 := (i 0).isLt
  have hi1 : (i 1).val < 1 := (i 1).isLt
  have hi2 : (i 2).val < 256 := (i 2).isLt
  refine ⟨⟨(i 0).val / 2, by omega⟩, flush0_5 _, ?_⟩
  obtain ⟨-, -, -, -, -, -, -, -, -, -, -, h0, h1, h2⟩ := index_facts ⟨(i 0).val / 2, by omega⟩
  rw [mem_block]
  intro a
  match a with
  | ⟨0, _⟩ =>
    show win0_5.index ⟨(i 0).val / 2, _⟩ 0 * 2 ≤ (i 0).val ∧ (i 0).val < win0_5.index ⟨(i 0).val / 2, _⟩ 0 * 2 + 2
    rw [h0]; show (i 0).val / 2 * 2 ≤ (i 0).val ∧ (i 0).val < (i 0).val / 2 * 2 + 2; omega
  | ⟨1, _⟩ =>
    show win0_5.index ⟨(i 0).val / 2, _⟩ 1 * 1 ≤ (i 1).val ∧ (i 1).val < win0_5.index ⟨(i 0).val / 2, _⟩ 1 * 1 + 1
    rw [h1]; omega
  | ⟨2, _⟩ =>
    show win0_5.index ⟨(i 0).val / 2, _⟩ 2 * 256 ≤ (i 2).val ∧ (i 2).val < win0_5.index ⟨(i 0).val / 2, _⟩ 2 * 256 + 256
    rw [h2]; omega

/-- So the region leaves the layer's shortcut formula in the whole `[32, 1, 256]` array. -/
theorem region_array (c : Dev nD) : (dats m 0 c).arrAt 5 cfg0.N = regionValue m c :=
  (dats m 0 c).arrAt_eq_of_cover 5 (regionValue m c) (fun t _ => written_back m c t) covered

/-- The layer's output `[32, 256]`, at batch and channel. -/
def resultValue (c : Dev nD) : Buf (Elt Ideal) ((c : Thread nD τ).loc main_v7) :=
  fun i => shortcutMean (FX m c) (FW m c) (FS m c) (i 0) (i 1)

/-- The last host operation views the `[32, 1, 256]` array as `[32, 256]`. -/
theorem result_array (c : Dev nD) :
    Pipeline.afterTail₀ cfgs (dats m) 0 (V0 m) [hostOps1] c main_v7 = resultValue m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = regionValue m c :=
    (Pipeline.withArrays_arr spec0 launch0.win.arr_inj c _ _ 5).trans (region_array m c)
  funext i
  show (shapeCast S32x256 (Pipeline.withArrays (cfgs 0).spec c (V0 m c) (fun w => (dats m 0 c).arrAt w (cfgs 0).N) (Proc.devRef .tc main_v6)) shapeCasts_S32x1x256_S32x256 : S32x256.Idx → EReal) i = _
  rw [e]
  obtain ⟨b, ch, rfl⟩ : ∃ (b : Fin 32) (ch : Fin 256), i = ix2 b ch := ⟨i 0, i 1, eq_ix2 i⟩
  refine (shapeCast_apply (regionValue m c) shapeCasts_S32x1x256_S32x256 (ix2 b ch) (ix3 b (0 : Fin 1) ch) ?_).trans rfl
  show (S32x1x256.rowMajor (ix3 b (0 : Fin 1) ch)).val = (S32x256.rowMajor (ix2 b ch)).val
  rw [Shape.rowMajor_val_three, Shape.rowMajor_val_two]
  show (b.val * 1 + 0) * 256 + ch.val = b.val * 256 + ch.val
  omega

/-- The idealized kernel's run, read: the result array ends at the layer's shortcut formula of the arguments, which are
    unchanged. -/
theorem run : θ_run defs (onTc (τ := τ) (main (F := Ideal))) ⟨m, fun _ => 0, ρ⟩ fun r => ∀ c : Dev nD,
      r.2.mem ((c.tc : Thread nD τ).loc main_v7) = resultValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_array m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Encoding.Kernel

end
-- ==== Proof.lean ====
/-
  The five claims for the encoding layer's kernel against its reference.

  For every batch `b` and channel `c` both idealized programs compute a mean, over the 32 codewords, of residuals of the
  features against the codewords, weighted by a softmax assignment `a(n, k)` of each of the 4096 positions to the
  codewords (the logits are minus the distance to the codeword, times the codeword's scale). The reference forms the
  weighted features `∑ₙ a(n,k)·x(c,n)` for every codeword and averages `∑ₙ a(n,k)·x(c,n) − (∑ₙ a(n,k))·w(k,c)` over `k`.
  The kernel uses that each position's assignments sum to one, so that `∑ₖ ∑ₙ a(n,k)·x(c,n) = ∑ₙ x(c,n)`, and computes
  `(∑ₙ x(c,n) − ∑ₖ (∑ₙ a(n,k))·w(k,c)) · (1/32)` without ever forming the weighted features.

  The two agree when the inputs are finite: every quantity is then a real number, the softmax normalizer is a positive
  real, each row of assignments sums to one, and the two finite sums may be exchanged. On the extended reals the
  agreement can fail at infinite inputs, so the precondition is used, once, to obtain real witnesses of the inputs.

  The modules: `Spec` states both formulas over one assignment; `Law` proves they agree on finite inputs;
  `ReferenceValue` reads the reference's result as the mean of residuals; `KernelRow` reads one stored row of the
  kernel as the shortcut formula, `KernelInputs` the arrays the kernel region is given, `KernelBlocks` the sixteen
  blocks tiling the result and the final reshape; `Finite` takes the inputs' finiteness out of the precondition.
  The three frame claims are the generated frames (the reference's is its generated run with the result dropped); the
  idealization rewrote nothing, so there is nothing to preserve.
-/
import proofs.«118770_j32856499814427_2_alg».proof.Defs
import proofs.«118770_j32856499814427_2_alg».proof.Proof.Gen.Kernel
import proofs.«118770_j32856499814427_2_alg».proof.Proof.Gen.Kernel.Skeleton
import proofs.«118770_j32856499814427_2_alg».proof.Proof.Gen.Kernel.Launch
import proofs.«118770_j32856499814427_2_alg».proof.Proof.Gen.Kernel.Points
import proofs.«118770_j32856499814427_2_alg».proof.Proof.Gen.Kernel.Frame
import proofs.«118770_j32856499814427_2_alg».proof.Proof.Gen.KernelIdeal
import proofs.«118770_j32856499814427_2_alg».proof.Proof.Gen.KernelIdeal.Skeleton
import proofs.«118770_j32856499814427_2_alg».proof.Proof.Gen.KernelIdeal.Launch
import proofs.«118770_j32856499814427_2_alg».proof.Proof.Gen.KernelIdeal.Points
import proofs.«118770_j32856499814427_2_alg».proof.Proof.Gen.KernelIdeal.Frame
import proofs.«118770_j32856499814427_2_alg».proof.Proof.Gen.ReferenceIdeal
import proofs.«118770_j32856499814427_2_alg».proof.Proof.Gen.Pre_finite_inputs
import proofs.«118770_j32856499814427_2_alg».proof.Proof.Gen.ReferenceIdeal.Run
import proofs.«118770_j32856499814427_2_alg».proof.Proof.Gen.ReferenceIdeal.Read
import proofs.«118770_j32856499814427_2_alg».proof.Proof.Spec
import proofs.«118770_j32856499814427_2_alg».proof.Proof.Law
import proofs.«118770_j32856499814427_2_alg».proof.Proof.Finite
import proofs.«118770_j32856499814427_2_alg».proof.Proof.ReferenceValue
import proofs.«118770_j32856499814427_2_alg».proof.Proof.KernelBlocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel ends at the shortcut formula of its arguments, the reference at the mean of residuals of arguments that
    agree with them; the arguments are finite by the precondition, where the two formulas are one. -/
theorem algebraic : Cert.algebraic_KernelIdeal_ReferenceIdeal := by
  intro m ρ m' ρ' hpre hagree
  refine ⟨fun c => Cert.Encoding.Kernel.resultValue m c, Cert.Encoding.Kernel.run m ρ, ?_⟩
  refine (θ_run Cert.ReferenceIdeal.defs _ _).mono (fun _ h c => ⟨?_, (h c).2⟩)
    (Cert.ReferenceIdeal.Value.run (F := Ideal) m' ρ')
  obtain ⟨h0, h1, h2⟩ := Cert.Encoding.finite_of_pre _ _ _ (hpre c)
  rw [(h c).1, Cert.ReferenceIdeal.Read.val_main_v43_eq, Cert.Encoding.Reference.reference_value,
    (hagree c).1, (hagree c).2.1, (hagree c).2.2]
  funext i
  exact (Cert.Encoding.shortcut_eq_residual _ _ _ (fun _ _ _ => h0 _) (fun _ _ => h1 _) (fun _ => h2 _) (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
